-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x128, .f32⟩
  | .hbm, ⟨90, _⟩ => ⟨S100000x128, .f32⟩
  | .hbm, ⟨91, _⟩ => ⟨S1x64, .f32⟩
  | .hbm, ⟨92, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_c_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_cst_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_c_13 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_14 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S1600000, .f32⟩
  | .hbm, ⟨48, _⟩ => ⟨S_, .f32⟩
  | .hbm, ⟨49, _⟩ => ⟨S100000, .f32⟩
  | .hbm, ⟨50, _⟩ => ⟨S1600000x1, .i32⟩
  | .hbm, ⟨51, _⟩ => ⟨S100000, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S_, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S1600000, .f32⟩
  | .hbm, ⟨82, _⟩ => ⟨S_, .f32⟩
  | .hbm, ⟨83, _⟩ => ⟨S100000, .f32⟩
  | .hbm, ⟨84, _⟩ => ⟨S1600000x1, .i32⟩
  | .hbm, ⟨85, _⟩ => ⟨S100000, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x128, .f32⟩
  | .hbm, ⟨95, _⟩ => ⟨S_, .f32⟩
  | .hbm, ⟨96, _⟩ => ⟨S100000x128, .f32⟩
  | .hbm, ⟨97, _⟩ => ⟨S1600000x1, .i32⟩
  | .hbm, ⟨98, _⟩ => ⟨S100000x128, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named. The program is three grid regions among stretches of host
  operations; after the last region every buffer of a core that outlives the regions holds what the fold of the
  segments through the launch memory leaves in it. Read at the result buffer this names the result; read at the
  argument buffers it gives them back unchanged. Every weakly fair execution terminates, without a fault, in such a state.
-/
import proofs.«117198_j91087666413883_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, with
    the result buffer at the last segment boundary's contents and the twelve argument arrays as launched: the launch
    over the six segments, the last thread state read against the final state, the result buffer being one of the
    buffers that state holds. -/
theorem run_named : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.Whole

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«117198_j91087666413883_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.LibBiasRelu.lean ====
/-
  A matrix plus a row vector, clamped below at zero: entry (p, q) of `biasRelu a b` is max (a (p, q) + b (0, q)) 0,
  where b is a one-row matrix and 0 is the value of the all-zero float word. Two spellings of it: a vector unit's
  (identity re-lays, the row repeated down the rows, a maximum against the splat zero) and a host's (the row broadcast
  down the rows, a maximum against a broadcast scalar zero). A band of consecutive rows of it is the same function of
  the band of a.
-/
import proofs.«117198_j91087666413883_1_alg».proof.Proof.LibPlainDot

noncomputable section

namespace Cert.LibBiasRelu

open Idealize.ShloMosaic Idealize.ShloMosaic.ValueIdx

/-- Entry (p, q): the larger of a (p, q) + b (0, q) and the value of the zero word. -/
def biasRelu {M N : ℕ} (a : FVec Ideal ⟨2, ![M, N]⟩ .f32) (b : FVec Ideal ⟨2, ![1, N]⟩ .f32) : FVec Ideal ⟨2, ![M, N]⟩ .f32 :=
  fun i => max (a i + b (ix2 (n0 := 1) (n1 := N) (0 : Fin 1) (i 1))) (Ideal.ofBits .f32 0x00000000#32)

theorem biasRelu_apply {M N : ℕ} (a : FVec Ideal ⟨2, ![M, N]⟩ .f32) (b : FVec Ideal ⟨2, ![1, N]⟩ .f32) (p : Fin M) (q : Fin N) :
    biasRelu a b (ix2 p q) = max (a (ix2 p q) + b (ix2 (0 : Fin 1) q)) (Ideal.ofBits .f32 0x00000000#32) := rfl

/-- The vector unit's spelling. -/
theorem vector_form {M N : ℕ} (a : FVec Ideal ⟨2, ![M, N]⟩ .f32) (b : FVec Ideal ⟨2, ![1, N]⟩ .f32)
    (h1 : (⟨2, ![M, N]⟩ : Shape).ShapeCasts ⟨2, ![M, N]⟩) (h2 : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a h1) (broadcastTo ⟨2, ![M, N]⟩ (shapeCast ⟨2, ![1, N]⟩ b h2) hb))
        (broadcast ⟨2, ![M, N]⟩ (Scalar.ofBits (F := Ideal) .f32 0x00000000#32)) = biasRelu a b := by
  funext j
  obtain ⟨p, q, rfl⟩ : ∃ (p : Fin M) (q : Fin N), j = ix2 p q := ⟨j 0, j 1, eq_ix2 j⟩
  rw [shapeCast_self, shapeCast_self, maximumf_apply, addf_apply, broadcastTo_1b_ab_apply, biasRelu_apply]
  rfl

/-- The host's spelling. -/
theorem host_form {M N : ℕ} (a : FVec Ideal ⟨2, ![M, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] hbc b))
        (broadcastInDim ⟨2, ![M, N]⟩ ![] h0 (constant (F := Ideal) ⟨0, ![]⟩ .f32 0x00000000#32)) = biasRelu a b := by
  funext j
  obtain ⟨p, q, rfl⟩ : ∃ (p : Fin M) (q : Fin N), j = ix2 p q := ⟨j 0, j 1, eq_ix2 j⟩
  have hz : broadcastInDim ⟨2, ![M, N]⟩ ![] h0 (constant (F := Ideal) ⟨0, ![]⟩ .f32 0x00000000#32) (ix2 p q)
      = Ideal.ofBits .f32 0x00000000#32 :=
    (broadcastInDim_apply _ h0 _ _ (fun a => a.elim0) (fun ax => ax.elim0)).trans rfl
  rw [maximumf_apply, addf_apply, Cert.LibPlainDot.bcast_1b_ab_apply, biasRelu_apply, hz]

/-- Rows r, …, r + T − 1: when a holds those rows of A and b is B, entry (p, q) of `biasRelu a b` is entry (r + p, q)
    of `biasRelu A B`. -/
theorem biasRelu_rows {M N T : ℕ} (A : FVec Ideal ⟨2, ![M, N]⟩ .f32) (B : FVec Ideal ⟨2, ![1, N]⟩ .f32)
    (a : FVec Ideal ⟨2, ![T, N]⟩ .f32) (b : FVec Ideal ⟨2, ![1, N]⟩ .f32) (r : ℕ)
    (ha : ∀ (p : Fin T) (q : Fin N) (hp : r + p.val < M), a (ix2 p q) = A (ix2 ⟨r + p.val, hp⟩ q))
    (hb : ∀ z, b z = B z) (p : Fin T) (q : Fin N) (hp : r + p.val < M) :
    biasRelu a b (ix2 p q) = biasRelu A B (ix2 ⟨r + p.val, hp⟩ q) := by
  rw [biasRelu_apply, biasRelu_apply, ha p q hp, hb]

end Cert.LibBiasRelu

end
-- ==== Proof.SageSpec.lean ====
/-
  One layer of a graph convolution that averages over incoming edges, as a function of whole arrays over the
  extended reals. With X the node features (one row per node), A the aggregated neighbour features, Ws and Wn the two
  weight matrices and b a one-row bias, entry (p, q) of a layer is

      sum over k of X (p, k) * Ws (k, q)  +  sum over k of A (p, k) * Wn (k, q)  +  b (0, q),

  clamped below at zero for a hidden layer and left as it is for the output layer. The sums are grouped exactly so:
  first the two products are added, then the bias. Two spellings are read as this function: a vector unit's (the
  operands narrowed to bf16 and multiplied into zero accumulators, the bias row repeated down the rows) and a host's
  (two contractions, the bias row broadcast down the rows). A band of consecutive rows of a layer is the same layer
  of that band of rows of X and of A: this is what a computation tiled over the nodes uses.
-/
import proofs.«117198_j91087666413883_1_alg».proof.Proof.LibMatProd
import proofs.«117198_j91087666413883_1_alg».proof.Proof.LibBiasRelu

noncomputable section

namespace Cert.SageSpec

open Idealize.ShloMosaic Idealize.ShloMosaic.ValueIdx Cert.LibPlainDot Cert.LibMatProd Cert.LibBiasRelu

variable {M K N : ℕ}

/-- The self part plus the neighbour part: entry (p, q) is the sum over k of X (p, k) * Ws (k, q) plus the sum over k
    of A (p, k) * Wn (k, q). -/
def twoProducts (X A : FVec Ideal ⟨2, ![M, K]⟩ .f32) (Ws Wn : FVec Ideal ⟨2, ![K, N]⟩ .f32) : FVec Ideal ⟨2, ![M, N]⟩ .f32 :=
  addf (matProd X Ws) (matProd A Wn)

/-- A hidden layer: the two products, plus the bias row, clamped below at zero. -/
def hidden (X A : FVec Ideal ⟨2, ![M, K]⟩ .f32) (Ws Wn : FVec Ideal ⟨2, ![K, N]⟩ .f32) (b : FVec Ideal ⟨2, ![1, N]⟩ .f32) :
    FVec Ideal ⟨2, ![M, N]⟩ .f32 :=
  biasRelu (twoProducts X A Ws Wn) b

/-- The output layer: the two products plus the bias row. -/
def output (X A : FVec Ideal ⟨2, ![M, K]⟩ .f32) (Ws Wn : FVec Ideal ⟨2, ![K, N]⟩ .f32) (b : FVec Ideal ⟨2, ![1, N]⟩ .f32) :
    FVec Ideal ⟨2, ![M, N]⟩ .f32 :=
  fun i => twoProducts X A Ws Wn i + b (ix2 (n0 := 1) (n1 := N) (0 : Fin 1) (i 1))

theorem output_apply (X A : FVec Ideal ⟨2, ![M, K]⟩ .f32) (Ws Wn : FVec Ideal ⟨2, ![K, N]⟩ .f32) (b : FVec Ideal ⟨2, ![1, N]⟩ .f32)
    (p : Fin M) (q : Fin N) :
    output X A Ws Wn b (ix2 p q) = twoProducts X A Ws Wn (ix2 p q) + b (ix2 (0 : Fin 1) q) := rfl

/-! ## The vector unit's spelling -/

/-- Two products of operands narrowed to bf16, each into a zero accumulator, added: the two products. The operands
    may arrive through identity re-lays (`xa = x`, `aa = a`). -/
theorem twoProducts_vector_form (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x a xa aa : FVec Ideal ⟨2, ![M, K]⟩ .f32) (ws wn : FVec Ideal ⟨2, ![K, N]⟩ .f32)
    (hx : xa = x) (ha : aa = a) (hb : FTy.bf16.bits < FTy.f32.bits) :
    addf (matmul d none (truncf .bf16 xa hb) (truncf .bf16 ws hb) (constant ⟨2, ![M, N]⟩ .f32 0x00000000#32))
         (matmul d none (truncf .bf16 aa hb) (truncf .bf16 wn hb) (constant ⟨2, ![M, N]⟩ .f32 0x00000000#32))
      = twoProducts x a ws wn := by
  subst hx ha
  rw [matmul_eq d h1 h2 h3 h4 h5 h6, matmul_eq d h1 h2 h3 h4 h5 h6]
  rfl

/-- The vector unit's hidden layer: the two products, the bias row repeated down the rows, a maximum against the
    splat zero. -/
theorem hidden_vector_form (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x a xa aa : FVec Ideal ⟨2, ![M, K]⟩ .f32) (ws wn : FVec Ideal ⟨2, ![K, N]⟩ .f32) (b bb : FVec Ideal ⟨2, ![1, N]⟩ .f32)
    (hx : xa = x) (ha : aa = a) (hbb : bb = b) (hb : FTy.bf16.bits < FTy.f32.bits)
    (hbc : (⟨2, ![1, N]⟩ : Shape).Broadcasts ⟨2, ![M, N]⟩) :
    maximumf (addf (addf (matmul d none (truncf .bf16 xa hb) (truncf .bf16 ws hb) (constant ⟨2, ![M, N]⟩ .f32 0x00000000#32))
                         (matmul d none (truncf .bf16 aa hb) (truncf .bf16 wn hb) (constant ⟨2, ![M, N]⟩ .f32 0x00000000#32)))
                   (broadcastTo ⟨2, ![M, N]⟩ bb hbc))
             (broadcast ⟨2, ![M, N]⟩ (Scalar.ofBits (F := Ideal) .f32 0x00000000#32)) = hidden x a ws wn b := by
  subst hbb
  rw [twoProducts_vector_form d h1 h2 h3 h4 h5 h6 x a xa aa ws wn hx ha hb]
  funext j
  obtain ⟨p, q, rfl⟩ : ∃ (p : Fin M) (q : Fin N), j = ix2 p q := ⟨j 0, j 1, eq_ix2 j⟩
  unfold hidden
  rw [maximumf_apply, addf_apply, broadcastTo_1b_ab_apply, biasRelu_apply]
  rfl

/-- The vector unit's output layer: the two products and the bias row repeated down the rows. -/
theorem output_vector_form (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x a xa aa : FVec Ideal ⟨2, ![M, K]⟩ .f32) (ws wn : FVec Ideal ⟨2, ![K, N]⟩ .f32) (b bb : FVec Ideal ⟨2, ![1, N]⟩ .f32)
    (hx : xa = x) (ha : aa = a) (hbb : bb = b) (hb : FTy.bf16.bits < FTy.f32.bits)
    (hbc : (⟨2, ![1, N]⟩ : Shape).Broadcasts ⟨2, ![M, N]⟩) :
    addf (addf (matmul d none (truncf .bf16 xa hb) (truncf .bf16 ws hb) (constant ⟨2, ![M, N]⟩ .f32 0x00000000#32))
               (matmul d none (truncf .bf16 aa hb) (truncf .bf16 wn hb) (constant ⟨2, ![M, N]⟩ .f32 0x00000000#32)))
         (broadcastTo ⟨2, ![M, N]⟩ bb hbc) = output x a ws wn b := by
  subst hbb
  rw [twoProducts_vector_form d h1 h2 h3 h4 h5 h6 x a xa aa ws wn hx ha hb]
  funext j
  obtain ⟨p, q, rfl⟩ : ∃ (p : Fin M) (q : Fin N), j = ix2 p q := ⟨j 0, j 1, eq_ix2 j⟩
  rw [addf_apply, broadcastTo_1b_ab_apply, output_apply]

/-! ## The host's spelling -/

/-- Two host contractions added: the two products. -/
theorem twoProducts_host_form (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x a : FVec Ideal ⟨2, ![M, K]⟩ .f32) (ws wn : FVec Ideal ⟨2, ![K, N]⟩ .f32) :
    addf (Host.dotGeneral (F := Ideal) d none x ws) (Host.dotGeneral (F := Ideal) d none a wn) = twoProducts x a ws wn := by
  rw [host_dot_eq d h1 h2 h3 h4 h5 h6, host_dot_eq d h1 h2 h3 h4 h5 h6]
  rfl

/-- The host's hidden layer: the two contractions, the bias row broadcast down the rows, a maximum against a
    broadcast scalar zero. -/
theorem hidden_host_form (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x a : FVec Ideal ⟨2, ![M, K]⟩ .f32) (ws wn : FVec Ideal ⟨2, ![K, N]⟩ .f32) (b : FVec Ideal ⟨2, ![1, N]⟩ .f32)
    (hbc : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (F := Ideal) d none x ws) (Host.dotGeneral (F := Ideal) d none a wn))
                   (broadcastInDim ⟨2, ![M, N]⟩ ![0, 1] hbc b))
             (broadcastInDim ⟨2, ![M, N]⟩ ![] h0 (constant (F := Ideal) ⟨0, ![]⟩ .f32 0x00000000#32)) = hidden x a ws wn b := by
  rw [twoProducts_host_form d h1 h2 h3 h4 h5 h6]
  exact host_form _ b hbc h0

/-- The host's output layer: the two contractions and the bias row broadcast down the rows. -/
theorem output_host_form (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x a : FVec Ideal ⟨2, ![M, K]⟩ .f32) (ws wn : FVec Ideal ⟨2, ![K, N]⟩ .f32) (b : FVec Ideal ⟨2, ![1, N]⟩ .f32)
    (hbc : (⟨2, ![1, N]⟩ : Shape).BroadcastsInDim ⟨2, ![M, N]⟩ ![0, 1]) :
    addf (addf (Host.dotGeneral (F := Ideal) d none x ws) (Host.dotGeneral (F := Ideal) d none a wn))
         (broadcastInDim ⟨2, ![M, N]⟩ ![0, 1] hbc b) = output x a ws wn b := by
  rw [twoProducts_host_form d h1 h2 h3 h4 h5 h6]
  funext j
  obtain ⟨p, q, rfl⟩ : ∃ (p : Fin M) (q : Fin N), j = ix2 p q := ⟨j 0, j 1, eq_ix2 j⟩
  rw [addf_apply, bcast_1b_ab_apply, output_apply]

/-! ## A band of rows -/

variable {T : ℕ}

/-- Rows r, …, r + T − 1 of the two products: when x and a hold those rows of X and A, and the weights are the
    weights, the band's entry at y is the whole array's entry at the index whose row is r plus y's row and whose
    column is y's. -/
theorem twoProducts_rows (X A : FVec Ideal ⟨2, ![M, K]⟩ .f32) (Ws Wn : FVec Ideal ⟨2, ![K, N]⟩ .f32)
    (x a : FVec Ideal ⟨2, ![T, K]⟩ .f32) (ws wn : FVec Ideal ⟨2, ![K, N]⟩ .f32) (r : ℕ)
    (hx : ∀ (p : Fin T) (k : Fin K) (hp : r + p.val < M), x (ix2 p k) = X (ix2 ⟨r + p.val, hp⟩ k))
    (ha : ∀ (p : Fin T) (k : Fin K) (hp : r + p.val < M), a (ix2 p k) = A (ix2 ⟨r + p.val, hp⟩ k))
    (hws : ∀ z, ws z = Ws z) (hwn : ∀ z, wn z = Wn z)
    (y : (⟨2, ![T, N]⟩ : Shape).Idx) (i : (⟨2, ![M, N]⟩ : Shape).Idx)
    (hi0 : (i 0).val = r + (y 0).val) (hi1 : (i 1).val = (y 1).val) :
    twoProducts x a ws wn y = twoProducts X A Ws Wn i := by
  unfold twoProducts
  rw [addf_apply, addf_apply, matProd_rows X Ws x ws r hx hws y i hi0 hi1, matProd_rows A Wn a wn r ha hwn y i hi0 hi1]

/-- The same band of a hidden layer. -/
theorem hidden_rows (X A : FVec Ideal ⟨2, ![M, K]⟩ .f32) (Ws Wn : FVec Ideal ⟨2, ![K, N]⟩ .f32) (B : FVec Ideal ⟨2, ![1, N]⟩ .f32)
    (x a : FVec Ideal ⟨2, ![T, K]⟩ .f32) (ws wn : FVec Ideal ⟨2, ![K, N]⟩ .f32) (b : FVec Ideal ⟨2, ![1, N]⟩ .f32) (r : ℕ)
    (hx : ∀ (p : Fin T) (k : Fin K) (hp : r + p.val < M), x (ix2 p k) = X (ix2 ⟨r + p.val, hp⟩ k))
    (ha : ∀ (p : Fin T) (k : Fin K) (hp : r + p.val < M), a (ix2 p k) = A (ix2 ⟨r + p.val, hp⟩ k))
    (hws : ∀ z, ws z = Ws z) (hwn : ∀ z, wn z = Wn z) (hb : ∀ z, b z = B z)
    (y : (⟨2, ![T, N]⟩ : Shape).Idx) (i : (⟨2, ![M, N]⟩ : Shape).Idx)
    (hi0 : (i 0).val = r + (y 0).val) (hi1 : (i 1).val = (y 1).val) :
    hidden x a ws wn b y = hidden X A Ws Wn B i := by
  have e := twoProducts_rows X A Ws Wn x a ws wn r hx ha hws hwn y i hi0 hi1
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have hq : q' = q := Fin.ext hi1
  subst hq
  unfold hidden
  rw [biasRelu_apply, biasRelu_apply, e, hb]

/-- The same band of the output layer. -/
theorem output_rows (X A : FVec Ideal ⟨2, ![M, K]⟩ .f32) (Ws Wn : FVec Ideal ⟨2, ![K, N]⟩ .f32) (B : FVec Ideal ⟨2, ![1, N]⟩ .f32)
    (x a : FVec Ideal ⟨2, ![T, K]⟩ .f32) (ws wn : FVec Ideal ⟨2, ![K, N]⟩ .f32) (b : FVec Ideal ⟨2, ![1, N]⟩ .f32) (r : ℕ)
    (hx : ∀ (p : Fin T) (k : Fin K) (hp : r + p.val < M), x (ix2 p k) = X (ix2 ⟨r + p.val, hp⟩ k))
    (ha : ∀ (p : Fin T) (k : Fin K) (hp : r + p.val < M), a (ix2 p k) = A (ix2 ⟨r + p.val, hp⟩ k))
    (hws : ∀ z, ws z = Ws z) (hwn : ∀ z, wn z = Wn z) (hb : ∀ z, b z = B z)
    (y : (⟨2, ![T, N]⟩ : Shape).Idx) (i : (⟨2, ![M, N]⟩ : Shape).Idx)
    (hi0 : (i 0).val = r + (y 0).val) (hi1 : (i 1).val = (y 1).val) :
    output x a ws wn b y = output X A Ws Wn B i := by
  have e := twoProducts_rows X A Ws Wn x a ws wn r hx ha hws hwn y i hi0 hi1
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have hq : q' = q := Fin.ext hi1
  subst hq
  rw [output_apply, output_apply, e, hb]

end Cert.SageSpec

end
-- ==== Proof.Net.lean ====
/-
  The whole computation as one function of the argument arrays. With X the node features, s and d the source and
  destination node of each edge, a layer first averages the features over incoming edges: the rows of X at the edges'
  sources (a negative source counted from the end) are summed into the rows named by d, and row v of the sum is divided
  by max (number of edges into v, 1). It then applies `Cert.SageSpec.hidden` (or, last, `Cert.SageSpec.output`) to X and
  that average, with the layer's bias vector laid out as one row. The network is three such layers, 128 -> 128 -> 128 -> 64.
  The averaging is the same host computation in both programs, so it is kept as one definition and never opened.
-/
import proofs.«117198_j91087666413883_1_alg».proof.Proof.Gen.KernelIdeal
import proofs.«117198_j91087666413883_1_alg».proof.Proof.SageSpec

noncomputable section

namespace Cert.KernelIdeal.Net

open Cert.KernelIdeal Cert.KernelIdeal.Gen Idealize.ShloMosaic Idealize.ShloMosaic.ValueIdx

/-- A vector laid out as one row: the broadcast along a new leading axis of extent one and the re-lay to one row read
    the same entry. -/
theorem row_forms_agree {N : ℕ} (b : (⟨1, ![N]⟩ : Shape).Idx → EReal)
    (hr : (⟨1, ![N]⟩ : Shape).BroadcastsInDim ⟨2, ![1, N]⟩ ![1]) (hc : (⟨1, ![N]⟩ : Shape).ShapeCasts ⟨2, ![1, N]⟩) :
    broadcastInDim ⟨2, ![1, N]⟩ ![1] hr b = shapeCast ⟨2, ![1, N]⟩ b hc := by
  funext j
  obtain ⟨u, q, rfl⟩ : ∃ (u : Fin 1) (q : Fin N), j = ix2 u q := ⟨j 0, j 1, eq_ix2 j⟩
  rw [Cert.LibPlainDot.bcast_a_1a_apply, shapeCast_a_1a_apply]

/-- The average of the rows of `h` over incoming edges: the edge sources `s` (a negative one counted from the end) pick
    rows of `h`, which are summed into the rows named by the destinations `d`; row v is then divided by the larger of
    the number of edges into v and one. -/
def meanIn (h : (⟨S100000x128, .f32⟩ : BufTy).Contents (Elt Ideal)) (s d : (⟨S1600000, .i32⟩ : BufTy).Contents (Elt Ideal)) :
    (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 d)
      (Host.gather gather_S100000x128_S1600000x1_S1600000x128_1_0_n_n_0_1_1128 h
        (broadcastInDim S1600000x1 ![0] bcast_S1600000_S1600000x1_0
          (select
            (cmpi .slt s (broadcastInDim S1600000 ![] bcast_S_S1600000 (constantI S_ 32 0#32)))
            (addi s (broadcastInDim S1600000 ![] bcast_S_S1600000 (constantI S_ 32 100000#32)))
            s))))
    (broadcastInDim S100000x128 ![0, 1] bcast_S100000x1_S100000x128_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 d)
            (broadcastInDim S1600000 ![] bcast_S_S1600000 (constant (F := Ideal) S_ .f32 0x3F800000#32)))
          (broadcastInDim S100000 ![] bcast_S_S100000 (constant (F := Ideal) S_ .f32 0x3F800000#32)))))

/-- A hidden layer of width 128 on the graph. -/
def hiddenLayer (X : (⟨S100000x128, .f32⟩ : BufTy).Contents (Elt Ideal)) (s d : (⟨S1600000, .i32⟩ : BufTy).Contents (Elt Ideal))
    (Ws Wn : (⟨S128x128, .f32⟩ : BufTy).Contents (Elt Ideal)) (b : (⟨S128, .f32⟩ : BufTy).Contents (Elt Ideal)) :
    (⟨S100000x128, .f32⟩ : BufTy).Contents (Elt Ideal) :=
  Cert.SageSpec.hidden (M := 100000) (K := 128) (N := 128) X (meanIn X s d) Ws Wn (shapeCast S1x128 b shapeCasts_S128_S1x128)

/-- The output layer, of width 64. -/
def outputLayer (X : (⟨S100000x128, .f32⟩ : BufTy).Contents (Elt Ideal)) (s d : (⟨S1600000, .i32⟩ : BufTy).Contents (Elt Ideal))
    (Ws Wn : (⟨S128x64, .f32⟩ : BufTy).Contents (Elt Ideal)) (b : (⟨S64, .f32⟩ : BufTy).Contents (Elt Ideal)) :
    (⟨S100000x64, .f32⟩ : BufTy).Contents (Elt Ideal) :=
  Cert.SageSpec.output (M := 100000) (K := 128) (N := 64) X (meanIn X s d) Ws Wn (shapeCast S1x64 b shapeCasts_S64_S1x64)

/-- The three layers, each fed the one before. -/
def net (X : (⟨S100000x128, .f32⟩ : BufTy).Contents (Elt Ideal)) (s d : (⟨S1600000, .i32⟩ : BufTy).Contents (Elt Ideal))
    (Ws0 Wn0 : (⟨S128x128, .f32⟩ : BufTy).Contents (Elt Ideal)) (b0 : (⟨S128, .f32⟩ : BufTy).Contents (Elt Ideal))
    (Ws1 Wn1 : (⟨S128x128, .f32⟩ : BufTy).Contents (Elt Ideal)) (b1 : (⟨S128, .f32⟩ : BufTy).Contents (Elt Ideal))
    (Ws2 Wn2 : (⟨S128x64, .f32⟩ : BufTy).Contents (Elt Ideal)) (b2 : (⟨S64, .f32⟩ : BufTy).Contents (Elt Ideal)) :
    (⟨S100000x64, .f32⟩ : BufTy).Contents (Elt Ideal) :=
  outputLayer (hiddenLayer (hiddenLayer X s d Ws0 Wn0 b0) s d Ws1 Wn1 b1) s d Ws2 Wn2 b2

end Cert.KernelIdeal.Net

end
-- ==== Proof.Band2.lean ====
/-
  Grid region 2 of the program, read as a function of the arrays it finds. The region walks the 100000 nodes in 50
  bands of 2000 rows: at band t it loads rows 2000 t, …, 2000 t + 1999 of the node features and of the aggregated
  neighbour features, the two weight matrices and the bias row whole, and writes back those rows of the layer
  (`Cert.SageSpec.output`). A band of rows of the layer is the layer of the band, and the 50 bands tile the rows, so
  after the region the output array holds the layer of the whole input arrays.
-/
import proofs.«117198_j91087666413883_1_alg».proof.Proof.Gen.KernelIdeal.Frame
import proofs.«117198_j91087666413883_1_alg».proof.Proof.SageSpec

set_option maxRecDepth 16384

noncomputable section

namespace Cert.KernelIdeal.Band2

open Cert.KernelIdeal Cert.KernelIdeal.Gen Idealize.ShloMosaic Idealize.ShloMosaic.TcCoe Idealize.SL.Sem
open Idealize.ShloMosaic.ValueIdx Cert.SageSpec

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on one band is the layer of the band. -/
theorem band_value (x0 x1 : Vec Ideal S2000x128 .f32) (x2 x3 : Vec Ideal S128x64 .f32) (x4 : Vec Ideal S1x64 .f32) :
    k2_pay1 (F := Ideal) x0 x1 x2 x3 x4 = output (M := 2000) (K := 128) (N := 64) x0 x1 x2 x3 x4 :=
  output_vector_form dot_S2000x128_S128x64_S2000x64_1_0_0_1_n_n rfl rfl rfl rfl rfl rfl x0 x1 (shapeCast S2000x128 x0 shapeCasts_S2000x128_S2000x128) (shapeCast S2000x128 x1 shapeCasts_S2000x128_S2000x128)
    x2 x3 x4 (shapeCast S1x64 x4 shapeCasts_S1x64_S1x64) (shapeCast_self _ _) (shapeCast_self _ _) (shapeCast_self _ _) bitsLt_bf16_f32
    broadcasts_S1x64_S2000x64

/-- The printed index maps over the grid: the two row-banded inputs and the output are at band t, the weights and the
    bias at the origin. -/
theorem band_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The layer of the whole arrays the region finds. -/
abbrev whole (c : Dev nD) : S100000x64.Idx → Elt Ideal .f32 :=
  output (M := 100000) (K := 128) (N := 64) (V c main_v41) (V c main_v60) (V c main_arg9) (V c main_arg10) (V c main_v61)

/-- What band t writes back is band t of the layer of the whole arrays. -/
theorem written_band (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero origin]
  simp only [View.ld_unit_zero (S := S2000x128) origin, View.ld_unit_zero (S := S128x64) origin, View.ld_unit_zero (S := S1x64) origin]
  rw [band_value]
  obtain ⟨e00, e01, e10, e11, e20, e21, e30, e31, e40, e41, e50, e51⟩ := band_index t
  have ht : t.val < 50 := lt_of_lt_of_eq t.isLt N_2
  funext y
  show output (M := 2000) (K := 128) (N := 64) (iblk2 V c 0 t) (iblk2 V c 1 t) (iblk2 V c 2 t) (iblk2 V c 3 t) (iblk2 V c 4 t) y
    = output (M := 100000) (K := 128) (N := 64) (V c main_v41) (V c main_v60) (V c main_arg9) (V c main_arg10) (V c main_v61) (((cfg2.win 5).blk t).view.emb y)
  refine output_rows (V c main_v41) (V c main_v60) (V c main_arg9) (V c main_arg10) (V c main_v61)
    (iblk2 V c 0 t) (iblk2 V c 1 t) (iblk2 V c 2 t) (iblk2 V c 3 t) (iblk2 V c 4 t) (t.val * 2000) ?_ ?_ ?_ ?_ ?_ y _ ?_ ?_
  · intro p k hp
    show V c main_v41 (((cfg2.win 0).blk t).view.emb (ix2 p k)) = V c main_v41 (ix2 ⟨t.val * 2000 + p.val, hp⟩ k)
    refine congrArg (V c main_v41) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · intro p k hp
    show V c main_v60 (((cfg2.win 1).blk t).view.emb (ix2 p k)) = V c main_v60 (ix2 ⟨t.val * 2000 + p.val, hp⟩ k)
    refine congrArg (V c main_v60) (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · intro z
    show V c main_arg9 (((cfg2.win 2).blk t).view.emb z) = V c main_arg9 z
    refine congrArg (V c main_arg9) (funext fun a => Fin.ext ?_)
    match a with
    | ⟨0, _⟩ => show win2_2.index t (0 : Fin 2) * 128 + 1 * (z 0).val = (z 0).val; omega
    | ⟨1, _⟩ => show win2_2.index t (1 : Fin 2) * 64 + 1 * (z 1).val = (z 1).val; omega
  · intro z
    show V c main_arg10 (((cfg2.win 3).blk t).view.emb z) = V c main_arg10 z
    refine congrArg (V c main_arg10) (funext fun a => Fin.ext ?_)
    match a with
    | ⟨0, _⟩ => show win2_3.index t (0 : Fin 2) * 128 + 1 * (z 0).val = (z 0).val; omega
    | ⟨1, _⟩ => show win2_3.index t (1 : Fin 2) * 64 + 1 * (z 1).val = (z 1).val; omega
  · intro z
    show V c main_v61 (((cfg2.win 4).blk t).view.emb z) = V c main_v61 z
    refine congrArg (V c main_v61) (funext fun a => Fin.ext ?_)
    match a with
    | ⟨0, _⟩ => show win2_4.index t (0 : Fin 2) * 1 + 1 * (z 0).val = (z 0).val; omega
    | ⟨1, _⟩ => show win2_4.index t (1 : Fin 2) * 64 + 1 * (z 1).val = (z 1).val; omega
  · show win2_5.index t (0 : Fin 2) * 2000 + 1 * (y 0).val = t.val * 2000 + (y 0).val; omega
  · show win2_5.index t (1 : Fin 2) * 64 + 1 * (y 1).val = (y 1).val; omega

/-- An index of the output array is in band t's block iff each coordinate is in the block's range on its axis. -/
theorem mem_band (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v62).slice (win2_5.rect t)).set ↔ _
  rw [View.set_slice_whole, Rect.mem_set_unit]
  exact Iff.rfl

/-- Every band is some grid point's. -/
theorem band_onto : ∀ q : Fin 50, ∃ t : Fin cfg2.N, win2_5.index t = ![q.val, 0] :=
  (by decide +kernel : ∀ q : Fin 50, ∃ t : Fin grid2.N, win2_5.index t = ![q.val, 0])

/-- Row r of the output lies in band r / 2000: the bands tile the array. -/
theorem bands_cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := band_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_band]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The output array after the region: the layer of the arrays the region finds. -/
theorem region_value (c : Dev nD) : (dat2 V c).arrAt 5 cfg2.N = whole V c :=
  (dat2 V c).arrAt_eq_of_cover 5 (whole V c) (fun t _ => written_band V c t) (bands_cover)

end Cert.KernelIdeal.Band2

end
-- ==== Proof.Band1.lean ====
/-
  Grid region 1 of the program, read as a function of the arrays it finds. The region walks the 100000 nodes in 50
  bands of 2000 rows: at band t it loads rows 2000 t, …, 2000 t + 1999 of the node features and of the aggregated
  neighbour features, the two weight matrices and the bias row whole, and writes back those rows of the layer
  (`Cert.SageSpec.hidden`). A band of rows of the layer is the layer of the band, and the 50 bands tile the rows, so
  after the region the output array holds the layer of the whole input arrays.
-/
import proofs.«117198_j91087666413883_1_alg».proof.Proof.Gen.KernelIdeal.Frame
import proofs.«117198_j91087666413883_1_alg».proof.Proof.SageSpec

set_option maxRecDepth 16384

noncomputable section

namespace Cert.KernelIdeal.Band1

open Cert.KernelIdeal Cert.KernelIdeal.Gen Idealize.ShloMosaic Idealize.ShloMosaic.TcCoe Idealize.SL.Sem
open Idealize.ShloMosaic.ValueIdx Cert.SageSpec

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on one band is the layer of the band. -/
theorem band_value (x0 x1 : Vec Ideal S2000x128 .f32) (x2 x3 : Vec Ideal S128x128 .f32) (x4 : Vec Ideal S1x128 .f32) :
    k1_pay1 (F := Ideal) x0 x1 x2 x3 x4 = hidden (M := 2000) (K := 128) (N := 128) x0 x1 x2 x3 x4 :=
  hidden_vector_form dot_S2000x128_S128x128_S2000x128_1_0_0_1_n_n rfl rfl rfl rfl rfl rfl x0 x1 (shapeCast S2000x128 x0 shapeCasts_S2000x128_S2000x128) (shapeCast S2000x128 x1 shapeCasts_S2000x128_S2000x128)
    x2 x3 x4 (shapeCast S1x128 x4 shapeCasts_S1x128_S1x128) (shapeCast_self _ _) (shapeCast_self _ _) (shapeCast_self _ _) bitsLt_bf16_f32
    broadcasts_S1x128_S2000x128

/-- The printed index maps over the grid: the two row-banded inputs and the output are at band t, the weights and the
    bias at the origin. -/
theorem band_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the whole arrays the region finds. -/
abbrev whole (c : Dev nD) : S100000x128.Idx → Elt Ideal .f32 :=
  hidden (M := 100000) (K := 128) (N := 128) (V c main_v20) (V c main_v39) (V c main_arg6) (V c main_arg7) (V c main_v40)

/-- What band t writes back is band t of the layer of the whole arrays. -/
theorem written_band (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero origin]
  simp only [View.ld_unit_zero (S := S2000x128) origin, View.ld_unit_zero (S := S128x128) origin, View.ld_unit_zero (S := S1x128) origin]
  rw [band_value]
  obtain ⟨e00, e01, e10, e11, e20, e21, e30, e31, e40, e41, e50, e51⟩ := band_index t
  have ht : t.val < 50 := lt_of_lt_of_eq t.isLt N_1
  funext y
  show hidden (M := 2000) (K := 128) (N := 128) (iblk1 V c 0 t) (iblk1 V c 1 t) (iblk1 V c 2 t) (iblk1 V c 3 t) (iblk1 V c 4 t) y
    = hidden (M := 100000) (K := 128) (N := 128) (V c main_v20) (V c main_v39) (V c main_arg6) (V c main_arg7) (V c main_v40) (((cfg1.win 5).blk t).view.emb y)
  refine hidden_rows (V c main_v20) (V c main_v39) (V c main_arg6) (V c main_arg7) (V c main_v40)
    (iblk1 V c 0 t) (iblk1 V c 1 t) (iblk1 V c 2 t) (iblk1 V c 3 t) (iblk1 V c 4 t) (t.val * 2000) ?_ ?_ ?_ ?_ ?_ y _ ?_ ?_
  · intro p k hp
    show V c main_v20 (((cfg1.win 0).blk t).view.emb (ix2 p k)) = V c main_v20 (ix2 ⟨t.val * 2000 + p.val, hp⟩ k)
    refine congrArg (V c main_v20) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro p k hp
    show V c main_v39 (((cfg1.win 1).blk t).view.emb (ix2 p k)) = V c main_v39 (ix2 ⟨t.val * 2000 + p.val, hp⟩ k)
    refine congrArg (V c main_v39) (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · intro z
    show V c main_arg6 (((cfg1.win 2).blk t).view.emb z) = V c main_arg6 z
    refine congrArg (V c main_arg6) (funext fun a => Fin.ext ?_)
    match a with
    | ⟨0, _⟩ => show win1_2.index t (0 : Fin 2) * 128 + 1 * (z 0).val = (z 0).val; omega
    | ⟨1, _⟩ => show win1_2.index t (1 : Fin 2) * 128 + 1 * (z 1).val = (z 1).val; omega
  · intro z
    show V c main_arg7 (((cfg1.win 3).blk t).view.emb z) = V c main_arg7 z
    refine congrArg (V c main_arg7) (funext fun a => Fin.ext ?_)
    match a with
    | ⟨0, _⟩ => show win1_3.index t (0 : Fin 2) * 128 + 1 * (z 0).val = (z 0).val; omega
    | ⟨1, _⟩ => show win1_3.index t (1 : Fin 2) * 128 + 1 * (z 1).val = (z 1).val; omega
  · intro z
    show V c main_v40 (((cfg1.win 4).blk t).view.emb z) = V c main_v40 z
    refine congrArg (V c main_v40) (funext fun a => Fin.ext ?_)
    match a with
    | ⟨0, _⟩ => show win1_4.index t (0 : Fin 2) * 1 + 1 * (z 0).val = (z 0).val; omega
    | ⟨1, _⟩ => show win1_4.index t (1 : Fin 2) * 128 + 1 * (z 1).val = (z 1).val; omega
  · show win1_5.index t (0 : Fin 2) * 2000 + 1 * (y 0).val = t.val * 2000 + (y 0).val; omega
  · show win1_5.index t (1 : Fin 2) * 128 + 1 * (y 1).val = (y 1).val; omega

/-- An index of the output array is in band t's block iff each coordinate is in the block's range on its axis. -/
theorem mem_band (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Every band is some grid point's. -/
theorem band_onto : ∀ q : Fin 50, ∃ t : Fin cfg1.N, win1_5.index t = ![q.val, 0] :=
  (by decide +kernel : ∀ q : Fin 50, ∃ t : Fin grid1.N, win1_5.index t = ![q.val, 0])

/-- Row r of the output lies in band r / 2000: the bands tile the array. -/
theorem bands_cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := band_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_band]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region: the layer of the arrays the region finds. -/
theorem region_value (c : Dev nD) : (dat1 V c).arrAt 5 cfg1.N = whole V c :=
  (dat1 V c).arrAt_eq_of_cover 5 (whole V c) (fun t _ => written_band V c t) (bands_cover)

end Cert.KernelIdeal.Band1

end
-- ==== Proof.Band0.lean ====
/-
  Grid region 0 of the program, read as a function of the arrays it finds. The region walks the 100000 nodes in 50
  bands of 2000 rows: at band t it loads rows 2000 t, …, 2000 t + 1999 of the node features and of the aggregated
  neighbour features, the two weight matrices and the bias row whole, and writes back those rows of the layer
  (`Cert.SageSpec.hidden`). A band of rows of the layer is the layer of the band, and the 50 bands tile the rows, so
  after the region the output array holds the layer of the whole input arrays.
-/
import proofs.«117198_j91087666413883_1_alg».proof.Proof.Gen.KernelIdeal.Frame
import proofs.«117198_j91087666413883_1_alg».proof.Proof.SageSpec

set_option maxRecDepth 16384

noncomputable section

namespace Cert.KernelIdeal.Band0

open Cert.KernelIdeal Cert.KernelIdeal.Gen Idealize.ShloMosaic Idealize.ShloMosaic.TcCoe Idealize.SL.Sem
open Idealize.ShloMosaic.ValueIdx Cert.SageSpec

variable (V : (c : Dev nD) → (b : Ref sig .tc) → Buf (Elt Ideal) ((c : Thread nD τ).loc b))

theorem origin : (![0, 0] : Fin 2 → Nat) = fun _ => 0 := funext fun a => by fin_cases a <;> rfl

/-- The body's arithmetic on one band is the layer of the band. -/
theorem band_value (x0 x1 : Vec Ideal S2000x128 .f32) (x2 x3 : Vec Ideal S128x128 .f32) (x4 : Vec Ideal S1x128 .f32) :
    k0_pay1 (F := Ideal) x0 x1 x2 x3 x4 = hidden (M := 2000) (K := 128) (N := 128) x0 x1 x2 x3 x4 :=
  hidden_vector_form dot_S2000x128_S128x128_S2000x128_1_0_0_1_n_n rfl rfl rfl rfl rfl rfl x0 x1 x0 (shapeCast S2000x128 x1 shapeCasts_S2000x128_S2000x128)
    x2 x3 x4 (shapeCast S1x128 x4 shapeCasts_S1x128_S1x128) rfl (shapeCast_self _ _) (shapeCast_self _ _) bitsLt_bf16_f32
    broadcasts_S1x128_S2000x128

/-- The printed index maps over the grid: the two row-banded inputs and the output are at band t, the weights and the
    bias at the origin. -/
theorem band_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the whole arrays the region finds. -/
abbrev whole (c : Dev nD) : S100000x128.Idx → Elt Ideal .f32 :=
  hidden (M := 100000) (K := 128) (N := 128) (V c main_arg0) (V c main_v18) (V c main_arg3) (V c main_arg4) (V c main_v19)

/-- What band t writes back is band t of the layer of the whole arrays. -/
theorem written_band (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero origin]
  simp only [View.ld_unit_zero (S := S2000x128) origin, View.ld_unit_zero (S := S128x128) origin, View.ld_unit_zero (S := S1x128) origin]
  rw [band_value]
  obtain ⟨e00, e01, e10, e11, e20, e21, e30, e31, e40, e41, e50, e51⟩ := band_index t
  have ht : t.val < 50 := lt_of_lt_of_eq t.isLt N_0
  funext y
  show hidden (M := 2000) (K := 128) (N := 128) (iblk0 V c 0 t) (iblk0 V c 1 t) (iblk0 V c 2 t) (iblk0 V c 3 t) (iblk0 V c 4 t) y
    = hidden (M := 100000) (K := 128) (N := 128) (V c main_arg0) (V c main_v18) (V c main_arg3) (V c main_arg4) (V c main_v19) (((cfg0.win 5).blk t).view.emb y)
  refine hidden_rows (V c main_arg0) (V c main_v18) (V c main_arg3) (V c main_arg4) (V c main_v19)
    (iblk0 V c 0 t) (iblk0 V c 1 t) (iblk0 V c 2 t) (iblk0 V c 3 t) (iblk0 V c 4 t) (t.val * 2000) ?_ ?_ ?_ ?_ ?_ y _ ?_ ?_
  · intro p k hp
    show V c main_arg0 (((cfg0.win 0).blk t).view.emb (ix2 p k)) = V c main_arg0 (ix2 ⟨t.val * 2000 + p.val, hp⟩ k)
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro p k hp
    show V c main_v18 (((cfg0.win 1).blk t).view.emb (ix2 p k)) = V c main_v18 (ix2 ⟨t.val * 2000 + p.val, hp⟩ k)
    refine congrArg (V c main_v18) (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · intro z
    show V c main_arg3 (((cfg0.win 2).blk t).view.emb z) = V c main_arg3 z
    refine congrArg (V c main_arg3) (funext fun a => Fin.ext ?_)
    match a with
    | ⟨0, _⟩ => show win0_2.index t (0 : Fin 2) * 128 + 1 * (z 0).val = (z 0).val; omega
    | ⟨1, _⟩ => show win0_2.index t (1 : Fin 2) * 128 + 1 * (z 1).val = (z 1).val; omega
  · intro z
    show V c main_arg4 (((cfg0.win 3).blk t).view.emb z) = V c main_arg4 z
    refine congrArg (V c main_arg4) (funext fun a => Fin.ext ?_)
    match a with
    | ⟨0, _⟩ => show win0_3.index t (0 : Fin 2) * 128 + 1 * (z 0).val = (z 0).val; omega
    | ⟨1, _⟩ => show win0_3.index t (1 : Fin 2) * 128 + 1 * (z 1).val = (z 1).val; omega
  · intro z
    show V c main_v19 (((cfg0.win 4).blk t).view.emb z) = V c main_v19 z
    refine congrArg (V c main_v19) (funext fun a => Fin.ext ?_)
    match a with
    | ⟨0, _⟩ => show win0_4.index t (0 : Fin 2) * 1 + 1 * (z 0).val = (z 0).val; omega
    | ⟨1, _⟩ => show win0_4.index t (1 : Fin 2) * 128 + 1 * (z 1).val = (z 1).val; omega
  · show win0_5.index t (0 : Fin 2) * 2000 + 1 * (y 0).val = t.val * 2000 + (y 0).val; omega
  · show win0_5.index t (1 : Fin 2) * 128 + 1 * (y 1).val = (y 1).val; omega

/-- An index of the output array is in band t's block iff each coordinate is in the block's range on its axis. -/
theorem mem_band (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Every band is some grid point's. -/
theorem band_onto : ∀ q : Fin 50, ∃ t : Fin cfg0.N, win0_5.index t = ![q.val, 0] :=
  (by decide +kernel : ∀ q : Fin 50, ∃ t : Fin grid0.N, win0_5.index t = ![q.val, 0])

/-- Row r of the output lies in band r / 2000: the bands tile the array. -/
theorem bands_cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := band_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_band]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the layer of the arrays the region finds. -/
theorem region_value (c : Dev nD) : (dat0 V c).arrAt 5 cfg0.N = whole V c :=
  (dat0 V c).arrAt_eq_of_cover 5 (whole V c) (fun t _ => written_band V c t) (bands_cover)

end Cert.KernelIdeal.Band0

end
-- ==== Proof.Stage1.lean ====
/-
  The first segment boundary and the first region. The host operations before region 0 write neither an argument
  array nor anything but fresh buffers, so at region 0's entry the arguments hold their launch contents, the buffer of
  aggregated neighbours holds the average over incoming edges of the input features, and the bias buffer holds the
  first bias as one row. Region 0 then leaves in its output buffer the first hidden layer of the arguments, and every
  buffer that is not one of its arrays as it was.
-/
import proofs.«117198_j91087666413883_1_alg».proof.Proof.Gen.KernelIdeal.Frame
import proofs.«117198_j91087666413883_1_alg».proof.Proof.Net
import proofs.«117198_j91087666413883_1_alg».proof.Proof.Band0
import Idealize.ShloMosaic.Lib.StableHlo.Run

set_option maxRecDepth 16384

noncomputable section

namespace Cert.KernelIdeal.Stage1

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg)

theorem entry_arg0 (c : Dev nD) : W1 m ρ c (Proc.devRef .tc main_arg0) = m ((c : Thread nD τ).loc main_arg0) := by
  show StableHlo.after hostOps0 (W0 m ρ c) (Proc.devRef .tc main_arg0) = _
  after_results_simp

theorem entry_arg1 (c : Dev nD) : W1 m ρ c (Proc.devRef .tc main_arg1) = m ((c : Thread nD τ).loc main_arg1) := by
  show StableHlo.after hostOps0 (W0 m ρ c) (Proc.devRef .tc main_arg1) = _
  after_results_simp

theorem entry_arg2 (c : Dev nD) : W1 m ρ c (Proc.devRef .tc main_arg2) = m ((c : Thread nD τ).loc main_arg2) := by
  show StableHlo.after hostOps0 (W0 m ρ c) (Proc.devRef .tc main_arg2) = _
  after_results_simp

theorem entry_arg3 (c : Dev nD) : W1 m ρ c (Proc.devRef .tc main_arg3) = m ((c : Thread nD τ).loc main_arg3) := by
  show StableHlo.after hostOps0 (W0 m ρ c) (Proc.devRef .tc main_arg3) = _
  after_results_simp

theorem entry_arg4 (c : Dev nD) : W1 m ρ c (Proc.devRef .tc main_arg4) = m ((c : Thread nD τ).loc main_arg4) := by
  show StableHlo.after hostOps0 (W0 m ρ c) (Proc.devRef .tc main_arg4) = _
  after_results_simp

theorem entry_arg6 (c : Dev nD) : W1 m ρ c (Proc.devRef .tc main_arg6) = m ((c : Thread nD τ).loc main_arg6) := by
  show StableHlo.after hostOps0 (W0 m ρ c) (Proc.devRef .tc main_arg6) = _
  after_results_simp

theorem entry_arg7 (c : Dev nD) : W1 m ρ c (Proc.devRef .tc main_arg7) = m ((c : Thread nD τ).loc main_arg7) := by
  show StableHlo.after hostOps0 (W0 m ρ c) (Proc.devRef .tc main_arg7) = _
  after_results_simp

theorem entry_arg8 (c : Dev nD) : W1 m ρ c (Proc.devRef .tc main_arg8) = m ((c : Thread nD τ).loc main_arg8) := by
  show StableHlo.after hostOps0 (W0 m ρ c) (Proc.devRef .tc main_arg8) = _
  after_results_simp

theorem entry_arg9 (c : Dev nD) : W1 m ρ c (Proc.devRef .tc main_arg9) = m ((c : Thread nD τ).loc main_arg9) := by
  show StableHlo.after hostOps0 (W0 m ρ c) (Proc.devRef .tc main_arg9) = _
  after_results_simp

theorem entry_arg10 (c : Dev nD) : W1 m ρ c (Proc.devRef .tc main_arg10) = m ((c : Thread nD τ).loc main_arg10) := by
  show StableHlo.after hostOps0 (W0 m ρ c) (Proc.devRef .tc main_arg10) = _
  after_results_simp

theorem entry_arg11 (c : Dev nD) : W1 m ρ c (Proc.devRef .tc main_arg11) = m ((c : Thread nD τ).loc main_arg11) := by
  show StableHlo.after hostOps0 (W0 m ρ c) (Proc.devRef .tc main_arg11) = _
  after_results_simp

set_option maxHeartbeats 4000000 in
/-- The aggregated neighbours at region 0's entry. -/
theorem entry_mean (c : Dev nD) : W1 m ρ c (Proc.devRef .tc main_v18) = meanIn (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

/-- The bias row at region 0's entry. -/
theorem entry_bias (c : Dev nD) : W1 m ρ c (Proc.devRef .tc main_v19) = shapeCast S1x128 (m ((c : Thread nD τ).loc main_arg5)) shapeCasts_S128_S1x128 := by
  show StableHlo.after hostOps0 (W0 m ρ c) (Proc.devRef .tc main_v19) = _
  after_results_simp
  rfl

/-- The first hidden layer of the arguments. -/
abbrev H1 (c : Dev nD) : (⟨S100000x128, .f32⟩ : BufTy).Contents (Elt Ideal) :=
  hiddenLayer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Region 0's output buffer at its exit. -/
theorem exit_out (c : Dev nD) : W2 m ρ c (Proc.devRef .tc main_v20) = H1 m c := by
  refine (W2_arr m ρ c 5).trans ((Band0.region_value (V1 m ρ) c).trans ?_)
  show Cert.SageSpec.hidden (M := 100000) (K := 128) (N := 128) (W1 m ρ c (Proc.devRef .tc main_arg0)) (W1 m ρ c (Proc.devRef .tc main_v18))
      (W1 m ρ c (Proc.devRef .tc main_arg3)) (W1 m ρ c (Proc.devRef .tc main_arg4)) (W1 m ρ c (Proc.devRef .tc main_v19)) = _
  rw [entry_arg0, entry_mean, entry_arg3, entry_arg4, entry_bias]
  rfl

theorem exit_arg1 (c : Dev nD) : W2 m ρ c (Proc.devRef .tc main_arg1) = m ((c : Thread nD τ).loc main_arg1) :=
  (W2_of_ne m ρ c main_arg1 (by decide)).trans (entry_arg1 m ρ c)

theorem exit_arg2 (c : Dev nD) : W2 m ρ c (Proc.devRef .tc main_arg2) = m ((c : Thread nD τ).loc main_arg2) :=
  (W2_of_ne m ρ c main_arg2 (by decide)).trans (entry_arg2 m ρ c)

theorem exit_arg6 (c : Dev nD) : W2 m ρ c (Proc.devRef .tc main_arg6) = m ((c : Thread nD τ).loc main_arg6) :=
  (W2_of_ne m ρ c main_arg6 (by decide)).trans (entry_arg6 m ρ c)

theorem exit_arg7 (c : Dev nD) : W2 m ρ c (Proc.devRef .tc main_arg7) = m ((c : Thread nD τ).loc main_arg7) :=
  (W2_of_ne m ρ c main_arg7 (by decide)).trans (entry_arg7 m ρ c)

theorem exit_arg8 (c : Dev nD) : W2 m ρ c (Proc.devRef .tc main_arg8) = m ((c : Thread nD τ).loc main_arg8) :=
  (W2_of_ne m ρ c main_arg8 (by decide)).trans (entry_arg8 m ρ c)

theorem exit_arg9 (c : Dev nD) : W2 m ρ c (Proc.devRef .tc main_arg9) = m ((c : Thread nD τ).loc main_arg9) :=
  (W2_of_ne m ρ c main_arg9 (by decide)).trans (entry_arg9 m ρ c)

theorem exit_arg10 (c : Dev nD) : W2 m ρ c (Proc.devRef .tc main_arg10) = m ((c : Thread nD τ).loc main_arg10) :=
  (W2_of_ne m ρ c main_arg10 (by decide)).trans (entry_arg10 m ρ c)

theorem exit_arg11 (c : Dev nD) : W2 m ρ c (Proc.devRef .tc main_arg11) = m ((c : Thread nD τ).loc main_arg11) :=
  (W2_of_ne m ρ c main_arg11 (by decide)).trans (entry_arg11 m ρ c)

end Cert.KernelIdeal.Stage1

end
-- ==== Proof.Stage3.lean ====
/-
  The second stretch of host operations and the second region. The host operations between regions 0 and 1 leave the
  first hidden layer where region 0 wrote it, average it over incoming edges into the buffer of aggregated neighbours
  and lay the second bias out as one row; region 1 then leaves the second hidden layer in its output buffer.
-/
import proofs.«117198_j91087666413883_1_alg».proof.Proof.Gen.KernelIdeal.Frame
import proofs.«117198_j91087666413883_1_alg».proof.Proof.Net
import proofs.«117198_j91087666413883_1_alg».proof.Proof.Band1
import proofs.«117198_j91087666413883_1_alg».proof.Proof.Stage1
import Idealize.ShloMosaic.Lib.StableHlo.Run

set_option maxRecDepth 16384

noncomputable section

namespace Cert.KernelIdeal.Stage3

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg)

/-- The node features the region reads: the previous region's output, untouched by the host operations between. -/
theorem entry_feat (c : Dev nD) : W3 m ρ c (Proc.devRef .tc main_v20) = Stage1.H1 m c := by
  show StableHlo.after hostOps1 (W2 m ρ c) (Proc.devRef .tc main_v20) = _
  after_results_simp
  exact Stage1.exit_out m ρ c

set_option maxHeartbeats 4000000 in
/-- The aggregated neighbours at the region's entry: the average over incoming edges of the previous layer. -/
theorem entry_mean (c : Dev nD) : W3 m ρ c (Proc.devRef .tc main_v39) = meanIn (Stage1.H1 m c) (m ((c : Thread nD τ).loc main_arg1)) (m ((c : Thread nD τ).loc main_arg2)) := by
  show StableHlo.after hostOps1 (W2 m ρ c) (Proc.devRef .tc main_v39) = _
  after_results_simp
  rw [Stage1.exit_out m ρ c, Stage1.exit_arg1 m ρ c, Stage1.exit_arg2 m ρ c]
  rfl

/-- The bias row at the region's entry. -/
theorem entry_bias (c : Dev nD) : W3 m ρ c (Proc.devRef .tc main_v40) = shapeCast S1x128 (m ((c : Thread nD τ).loc main_arg8)) shapeCasts_S128_S1x128 := by
  show StableHlo.after hostOps1 (W2 m ρ c) (Proc.devRef .tc main_v40) = _
  after_results_simp
  rw [Stage1.exit_arg8 m ρ c]
  rfl

theorem entry_arg1 (c : Dev nD) : W3 m ρ c (Proc.devRef .tc main_arg1) = m ((c : Thread nD τ).loc main_arg1) := by
  show StableHlo.after hostOps1 (W2 m ρ c) (Proc.devRef .tc main_arg1) = _
  after_results_simp
  exact Stage1.exit_arg1 m ρ c

theorem entry_arg2 (c : Dev nD) : W3 m ρ c (Proc.devRef .tc main_arg2) = m ((c : Thread nD τ).loc main_arg2) := by
  show StableHlo.after hostOps1 (W2 m ρ c) (Proc.devRef .tc main_arg2) = _
  after_results_simp
  exact Stage1.exit_arg2 m ρ c

theorem entry_arg6 (c : Dev nD) : W3 m ρ c (Proc.devRef .tc main_arg6) = m ((c : Thread nD τ).loc main_arg6) := by
  show StableHlo.after hostOps1 (W2 m ρ c) (Proc.devRef .tc main_arg6) = _
  after_results_simp
  exact Stage1.exit_arg6 m ρ c

theorem entry_arg7 (c : Dev nD) : W3 m ρ c (Proc.devRef .tc main_arg7) = m ((c : Thread nD τ).loc main_arg7) := by
  show StableHlo.after hostOps1 (W2 m ρ c) (Proc.devRef .tc main_arg7) = _
  after_results_simp
  exact Stage1.exit_arg7 m ρ c

theorem entry_arg9 (c : Dev nD) : W3 m ρ c (Proc.devRef .tc main_arg9) = m ((c : Thread nD τ).loc main_arg9) := by
  show StableHlo.after hostOps1 (W2 m ρ c) (Proc.devRef .tc main_arg9) = _
  after_results_simp
  exact Stage1.exit_arg9 m ρ c

theorem entry_arg10 (c : Dev nD) : W3 m ρ c (Proc.devRef .tc main_arg10) = m ((c : Thread nD τ).loc main_arg10) := by
  show StableHlo.after hostOps1 (W2 m ρ c) (Proc.devRef .tc main_arg10) = _
  after_results_simp
  exact Stage1.exit_arg10 m ρ c

theorem entry_arg11 (c : Dev nD) : W3 m ρ c (Proc.devRef .tc main_arg11) = m ((c : Thread nD τ).loc main_arg11) := by
  show StableHlo.after hostOps1 (W2 m ρ c) (Proc.devRef .tc main_arg11) = _
  after_results_simp
  exact Stage1.exit_arg11 m ρ c

/-- The second hidden layer of the arguments. -/
abbrev H2 (c : Dev nD) : (⟨S100000x128, .f32⟩ : BufTy).Contents (Elt Ideal) :=
  hiddenLayer (Stage1.H1 m c) (m ((c : Thread nD τ).loc main_arg1)) (m ((c : Thread nD τ).loc main_arg2)) (m ((c : Thread nD τ).loc main_arg6)) (m ((c : Thread nD τ).loc main_arg7)) (m ((c : Thread nD τ).loc main_arg8))

/-- Region 1's output buffer at its exit. -/
theorem exit_out (c : Dev nD) : W4 m ρ c (Proc.devRef .tc main_v41) = H2 m c := by
  refine (W4_arr m ρ c 5).trans ((Band1.region_value (V3 m ρ) c).trans ?_)
  show Cert.SageSpec.hidden (M := 100000) (K := 128) (N := 128) (W3 m ρ c (Proc.devRef .tc main_v20)) (W3 m ρ c (Proc.devRef .tc main_v39))
      (W3 m ρ c (Proc.devRef .tc main_arg6)) (W3 m ρ c (Proc.devRef .tc main_arg7)) (W3 m ρ c (Proc.devRef .tc main_v40)) = _
  rw [entry_feat, entry_mean, entry_arg6, entry_arg7, entry_bias]
  rfl

theorem exit_arg1 (c : Dev nD) : W4 m ρ c (Proc.devRef .tc main_arg1) = m ((c : Thread nD τ).loc main_arg1) :=
  (W4_of_ne m ρ c main_arg1 (by decide)).trans (entry_arg1 m ρ c)

theorem exit_arg2 (c : Dev nD) : W4 m ρ c (Proc.devRef .tc main_arg2) = m ((c : Thread nD τ).loc main_arg2) :=
  (W4_of_ne m ρ c main_arg2 (by decide)).trans (entry_arg2 m ρ c)

theorem exit_arg9 (c : Dev nD) : W4 m ρ c (Proc.devRef .tc main_arg9) = m ((c : Thread nD τ).loc main_arg9) :=
  (W4_of_ne m ρ c main_arg9 (by decide)).trans (entry_arg9 m ρ c)

theorem exit_arg10 (c : Dev nD) : W4 m ρ c (Proc.devRef .tc main_arg10) = m ((c : Thread nD τ).loc main_arg10) :=
  (W4_of_ne m ρ c main_arg10 (by decide)).trans (entry_arg10 m ρ c)

theorem exit_arg11 (c : Dev nD) : W4 m ρ c (Proc.devRef .tc main_arg11) = m ((c : Thread nD τ).loc main_arg11) :=
  (W4_of_ne m ρ c main_arg11 (by decide)).trans (entry_arg11 m ρ c)

end Cert.KernelIdeal.Stage3

end
-- ==== Proof.Stage5.lean ====
/-
  The third stretch of host operations and the third region. The host operations between regions 1 and 2 leave the
  second hidden layer where region 1 wrote it, average it over incoming edges and lay the third bias out as one row;
  region 2 then leaves the output layer in the result buffer: the whole network of the arguments.
-/
import proofs.«117198_j91087666413883_1_alg».proof.Proof.Gen.KernelIdeal.Frame
import proofs.«117198_j91087666413883_1_alg».proof.Proof.Net
import proofs.«117198_j91087666413883_1_alg».proof.Proof.Band2
import proofs.«117198_j91087666413883_1_alg».proof.Proof.Stage3
import Idealize.ShloMosaic.Lib.StableHlo.Run

set_option maxRecDepth 16384

noncomputable section

namespace Cert.KernelIdeal.Stage5

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg)

/-- The node features the region reads: the previous region's output, untouched by the host operations between. -/
theorem entry_feat (c : Dev nD) : W5 m ρ c (Proc.devRef .tc main_v41) = Stage3.H2 m c := by
  show StableHlo.after hostOps2 (W4 m ρ c) (Proc.devRef .tc main_v41) = _
  after_results_simp
  exact Stage3.exit_out m ρ c

set_option maxHeartbeats 4000000 in
/-- The aggregated neighbours at the region's entry: the average over incoming edges of the previous layer. -/
theorem entry_mean (c : Dev nD) : W5 m ρ c (Proc.devRef .tc main_v60) = meanIn (Stage3.H2 m c) (m ((c : Thread nD τ).loc main_arg1)) (m ((c : Thread nD τ).loc main_arg2)) := by
  show StableHlo.after hostOps2 (W4 m ρ c) (Proc.devRef .tc main_v60) = _
  after_results_simp
  rw [Stage3.exit_out m ρ c, Stage3.exit_arg1 m ρ c, Stage3.exit_arg2 m ρ c]
  rfl

/-- The bias row at the region's entry. -/
theorem entry_bias (c : Dev nD) : W5 m ρ c (Proc.devRef .tc main_v61) = shapeCast S1x64 (m ((c : Thread nD τ).loc main_arg11)) shapeCasts_S64_S1x64 := by
  show StableHlo.after hostOps2 (W4 m ρ c) (Proc.devRef .tc main_v61) = _
  after_results_simp
  rw [Stage3.exit_arg11 m ρ c]
  rfl

theorem entry_arg9 (c : Dev nD) : W5 m ρ c (Proc.devRef .tc main_arg9) = m ((c : Thread nD τ).loc main_arg9) := by
  show StableHlo.after hostOps2 (W4 m ρ c) (Proc.devRef .tc main_arg9) = _
  after_results_simp
  exact Stage3.exit_arg9 m ρ c

theorem entry_arg10 (c : Dev nD) : W5 m ρ c (Proc.devRef .tc main_arg10) = m ((c : Thread nD τ).loc main_arg10) := by
  show StableHlo.after hostOps2 (W4 m ρ c) (Proc.devRef .tc main_arg10) = _
  after_results_simp
  exact Stage3.exit_arg10 m ρ c

/-- The result buffer after the last region: the network of the twelve arguments. -/
theorem result_value (c : Dev nD) : W6 m ρ c (Proc.devRef .tc main_v62)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Band2.region_value (V5 m ρ) c).trans ?_)
  show Cert.SageSpec.output (M := 100000) (K := 128) (N := 64) (W5 m ρ c (Proc.devRef .tc main_v41)) (W5 m ρ c (Proc.devRef .tc main_v60))
      (W5 m ρ c (Proc.devRef .tc main_arg9)) (W5 m ρ c (Proc.devRef .tc main_arg10)) (W5 m ρ c (Proc.devRef .tc main_v61)) = _
  rw [entry_feat, entry_mean, entry_arg9, entry_arg10, entry_bias]
  rfl

end Cert.KernelIdeal.Stage5

end
-- ==== Proof.RefNet.lean ====
/-
  The reference program's result is the network of its arguments. The reference is host operations only: per layer
  the same averaging over incoming edges as the kernel's host side (the same operations with the same dimension
  numbers: one definition reads both), two contractions, the bias broadcast to one row and down the rows, and for
  the hidden layers a maximum against a broadcast zero. Each is `Cert.SageSpec`'s host spelling of the layer.
-/
import proofs.«117198_j91087666413883_1_alg».proof.Proof.Gen.ReferenceIdeal.Read
import proofs.«117198_j91087666413883_1_alg».proof.Proof.Net

set_option maxRecDepth 16384

noncomputable section

namespace Cert.ReferenceIdeal.RefNet

open Cert.ReferenceIdeal Cert.ReferenceIdeal.Gen Cert.ReferenceIdeal.Read
open Idealize.ShloMosaic Idealize.ShloMosaic.TcCoe Idealize.SL.Sem

/-- The first layer's aggregated neighbours are the average over incoming edges of the input features. -/
theorem mean_1 (x0 : (⟨S100000x128, .f32⟩ : BufTy).Contents (Elt Ideal)) (x1 x2 : (⟨S1600000, .i32⟩ : BufTy).Contents (Elt Ideal)) :
    val_main_v18 (F := Ideal) x0 x1 x2 = Cert.KernelIdeal.Net.meanIn x0 x1 x2 := rfl

/-- The first hidden layer. -/
theorem layer_1 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) :
    val_main_v25 (F := Ideal) x0 x1 x2 x3 x4 x5 = Cert.KernelIdeal.Net.hiddenLayer x0 x1 x2 x3 x4 x5 := by
  unfold val_main_v25 val_main_v24 val_main_v23 val_main_v22 val_main_v21 val_main_v20 val_main_v19 val_main_call0_v0 val_main_call0_cst
  rw [mean_1 x0 x1 x2, Cert.KernelIdeal.Net.row_forms_agree (N := 128) x5 bcast_S128_S1x128_1 Cert.KernelIdeal.Gen.shapeCasts_S128_S1x128]
  exact Cert.SageSpec.hidden_host_form (M := 100000) (K := 128) (N := 128) dot_S100000x128_S128x128_S100000x128_1_0_0_1_n_n rfl rfl rfl rfl rfl rfl
    x0 _ x3 x4 _ bcast_S1x128_S100000x128_0_1 bcast_S_S100000x128

/-- The second layer's aggregated neighbours: the average of the first hidden layer. -/
theorem mean_2 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) :
    val_main_v44 (F := Ideal) x0 x1 x2 x3 x4 x5 = Cert.KernelIdeal.Net.meanIn (val_main_v25 (F := Ideal) x0 x1 x2 x3 x4 x5) x1 x2 := rfl

/-- The second hidden layer, of the first. -/
theorem layer_2 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v51 (F := Ideal) x0 x1 x2 x3 x4 x5 x6 x7 x8 = Cert.KernelIdeal.Net.hiddenLayer (val_main_v25 (F := Ideal) x0 x1 x2 x3 x4 x5) x1 x2 x6 x7 x8 := by
  unfold val_main_v51 val_main_v50 val_main_v49 val_main_v48 val_main_v47 val_main_v46 val_main_v45 val_main_call1_v0 val_main_call1_cst
  rw [mean_2 x0 x1 x2 x3 x4 x5, Cert.KernelIdeal.Net.row_forms_agree (N := 128) x8 bcast_S128_S1x128_1 Cert.KernelIdeal.Gen.shapeCasts_S128_S1x128]
  exact Cert.SageSpec.hidden_host_form (M := 100000) (K := 128) (N := 128) dot_S100000x128_S128x128_S100000x128_1_0_0_1_n_n rfl rfl rfl rfl rfl rfl
    _ _ x6 x7 _ bcast_S1x128_S100000x128_0_1 bcast_S_S100000x128

/-- The third layer's aggregated neighbours: the average of the second hidden layer. -/
theorem mean_3 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v70 (F := Ideal) x0 x1 x2 x3 x4 x5 x6 x7 x8 = Cert.KernelIdeal.Net.meanIn (val_main_v51 (F := Ideal) x0 x1 x2 x3 x4 x5 x6 x7 x8) x1 x2 := rfl

/-- The output layer, of the second hidden layer. -/
theorem layer_3 (x0 : (⟨S100000x128, .f32⟩ : BufTy).Contents (Elt Ideal)) (x1 x2 : (⟨S1600000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v76 (F := Ideal) x0 x1 x2 x3 x4 x5 x6 x7 x8 x9 x10 x11 = Cert.KernelIdeal.Net.outputLayer (val_main_v51 (F := Ideal) x0 x1 x2 x3 x4 x5 x6 x7 x8) x1 x2 x9 x10 x11 := by
  unfold val_main_v76 val_main_v75 val_main_v74 val_main_v73 val_main_v72 val_main_v71
  rw [mean_3 x0 x1 x2 x3 x4 x5 x6 x7 x8, Cert.KernelIdeal.Net.row_forms_agree (N := 64) x11 bcast_S64_S1x64_1 Cert.KernelIdeal.Gen.shapeCasts_S64_S1x64]
  exact Cert.SageSpec.output_host_form (M := 100000) (K := 128) (N := 64) dot_S100000x128_S128x64_S100000x64_1_0_0_1_n_n rfl rfl rfl rfl rfl rfl
    _ _ x9 x10 _ bcast_S1x64_S100000x64_0_1

/-- The reference run's result term is the network of the twelve arguments. -/
theorem ref_value (m : (ℓ : Loc nD τ sig) → Buf (Elt Ideal) ℓ) (c : Dev nD) :
    Cert.ReferenceIdeal.Value.res_main_v76 (F := Ideal) m c
      = Cert.KernelIdeal.Net.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [val_main_v76_eq, layer_3, layer_2, layer_1]
  rfl

end Cert.ReferenceIdeal.RefNet

end
-- ==== Proof.lean ====
/-
  The certificate of a three-layer graph convolution that averages over incoming edges (node features 100000 x 128,
  1600000 edges, widths 128 -> 128 -> 128 -> 64) against its plain reference, over the extended reals.

  Both programs compute, per layer, max (X Ws + A Wn + b, 0) (the last layer without the maximum), where A is the
  average of the rows of X over incoming edges, with the sums grouped the same way: the two products first, then the
  bias. The kernel computes the dense part of each layer in a grid region tiled over bands of 2000 nodes, with the
  operands narrowed to bf16 and multiplied into zero accumulators; the reference contracts the whole arrays. On exact
  values narrowing is the identity, a product into a zero accumulator is the contraction, and a band of rows of a
  layer is the layer of the band, so both results are the same function `Cert.KernelIdeal.Net.net` of the twelve
  arguments. No law used needs finiteness, so the precondition is never opened. The averaging is the same host
  computation in both programs and is never opened either.

  Modules: SageSpec (a layer as a function of whole arrays, its two spellings, a band of rows), Net (the averaging and
  the network), Band0 / Band1 / Band2 (what each grid region leaves in its output array), Stage1 / Stage3 / Stage5 (the
  buffers at each segment boundary, down to the result), KernelRun (the kernel's run with its result named), RefNet
  (the reference's result). The three frame claims are the generated frames of the two kernel programs and the
  reference's generated run with the result dropped; the idealization rewrote nothing, so `preserves` is trivial.
-/
import proofs.«117198_j91087666413883_1_alg».proof.Defs
import proofs.«117198_j91087666413883_1_alg».proof.Proof.Gen.Kernel
import proofs.«117198_j91087666413883_1_alg».proof.Proof.Gen.Kernel.Skeleton
import proofs.«117198_j91087666413883_1_alg».proof.Proof.Gen.Kernel.Launch
import proofs.«117198_j91087666413883_1_alg».proof.Proof.Gen.Kernel.Points
import proofs.«117198_j91087666413883_1_alg».proof.Proof.Gen.Kernel.Frame
import proofs.«117198_j91087666413883_1_alg».proof.Proof.Gen.KernelIdeal
import proofs.«117198_j91087666413883_1_alg».proof.Proof.Gen.KernelIdeal.Skeleton
import proofs.«117198_j91087666413883_1_alg».proof.Proof.Gen.KernelIdeal.Launch
import proofs.«117198_j91087666413883_1_alg».proof.Proof.Gen.KernelIdeal.Points
import proofs.«117198_j91087666413883_1_alg».proof.Proof.Gen.KernelIdeal.Frame
import proofs.«117198_j91087666413883_1_alg».proof.Proof.Gen.ReferenceIdeal
import proofs.«117198_j91087666413883_1_alg».proof.Proof.Gen.ReferenceIdeal.Run
import proofs.«117198_j91087666413883_1_alg».proof.Proof.Gen.ReferenceIdeal.Read
import proofs.«117198_j91087666413883_1_alg».proof.Proof.Gen.Pre_finite_inputs
import proofs.«117198_j91087666413883_1_alg».proof.Proof.KernelRun
import proofs.«117198_j91087666413883_1_alg».proof.Proof.Stage5
import proofs.«117198_j91087666413883_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the network of the arguments in their result buffer; the arguments agree. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Stage5.result_value m ρ c), (h c).2⟩)
      (Cert.KernelIdeal.Whole.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.RefNet.ref_value, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
